-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x4096 : Shape := ⟨2, ![1024, 4096]⟩
abbrev S4096 : Shape := ⟨1, ![4096]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x1024 .f32) (main_arg1 : FVec F S1024x4096 .f32) (main_arg2 : FVec F S4096 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x1024 : Shape := ⟨3, ![4, 4096, 1024]⟩
abbrev S1024x4096 : Shape := ⟨2, ![1024, 4096]⟩
abbrev S4096 : Shape := ⟨1, ![4096]⟩
abbrev S16384x1024 : Shape := ⟨2, ![16384, 1024]⟩
abbrev S1x4096 : Shape := ⟨2, ![1, 4096]⟩
abbrev S16384x4096 : Shape := ⟨2, ![16384, 4096]⟩
abbrev S512x1024 : Shape := ⟨2, ![512, 1024]⟩
abbrev S512x4096 : Shape := ⟨2, ![512, 4096]⟩
abbrev S4x4096x4096 : Shape := ⟨3, ![4, 4096, 4096]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024x4096, .f32⟩
  | .hbm, ⟨2, _⟩ => ⟨S4096, .f32⟩
  | .hbm, ⟨3, _⟩ => ⟨S16384x1024, .f32⟩
  | .hbm, ⟨4, _⟩ => ⟨S1x4096, .f32⟩
  | .hbm, ⟨5, _⟩ => ⟨S1024x4096, .bf16⟩
  | .hbm, ⟨6, _⟩ => ⟨S16384x4096, .f32⟩
  | .hbm, ⟨7, _⟩ => ⟨S4x4096x4096, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x1024_S16384x1024 : S4x4096x1024.ShapeCasts S16384x1024
  shapeCasts_S4096_S1x4096 : S4096.ShapeCasts S1x4096
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  shapeCasts_S16384x4096_S4x4096x4096 : S16384x4096.ShapeCasts S4x4096x4096
  dot_S512x1024_S1024x4096_S512x4096_1_0_0_1_n_n_wf : DotDims.WF S512x1024 S1024x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x4096 : Shape := ⟨2, ![1024, 4096]⟩
abbrev S4096 : Shape := ⟨1, ![4096]⟩
abbrev S4x4096x4096 : Shape := ⟨3, ![4, 4096, 4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x4096, .f32⟩
  | .hbm, ⟨2, _⟩ => ⟨S4096, .f32⟩
  | .hbm, ⟨3, _⟩ => ⟨S4x4096x4096, .f32⟩
  | .hbm, ⟨4, _⟩ => ⟨S1x1x4096, .f32⟩
  | .hbm, ⟨5, _⟩ => ⟨S4x4096x4096, .f32⟩
  | .hbm, ⟨6, _⟩ => ⟨S4x4096x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x1024_S1024x4096_S4x4096x4096_2_0_01_1_n_n_wf : DotDims.WF S4x4096x1024 S1024x4096 S4x4096x4096 [2] [0] [0, 1] [1] [] []

variable [Facts₀]

def dot_S4x4096x1024_S1024x4096_S4x4096x4096_2_0_01_1_n_n : DotDims S4x4096x1024 S1024x4096 S4x4096x4096 where
  lhsContracting := [2]
  rhsContracting := [0]
  lhsNonContracting := [0, 1]
  rhsNonContracting := [1]
  lhsBatch := []
  rhsBatch := []
  wf := dot_S4x4096x1024_S1024x4096_S4x4096x4096_2_0_01_1_n_n_wf

class Facts : Prop extends Facts₀ where

variable [Facts]
-- ==== Proof.DenseSpec.lean ====
/-
  The dense layer as a function on the extended reals, in the two arrangements the programs use.

  `rows`: over the 16384 flattened rows, `y[r, f] = (Σ_k x[r, k] · w[k, f]) + b[0, f]` — what the kernel's row
  slabs compute, the bias held as a one-row matrix.
  `dense`: over batch and sequence, `y[a, s, f] = (Σ_k x[a, s, k] · w[k, f]) + b[f]` — the einsum followed by the
  broadcast bias.

  `unflatten_rows`: flattening `(a, s) ↦ a · 4096 + s` is how a row-major reshape of [4, 4096, n] to [16384, n] moves
  entries, so `rows` of the flattened input, read back through the inverse reshape, is `dense`. Each side is a sum of
  the same products in the same order plus the same bias entry: no law of the extended reals is needed beyond
  reading each reshape at an index, and a change of float format is the identity.
-/
import Idealize.ShloMosaic.PureOps.Ideal
import Idealize.ShloMosaic.Lib.ValueIdx
import Idealize.ShloMosaic.Lib.Pipeline.Value

noncomputable section

open scoped BigOperators

namespace DenseSpec

open Idealize.ShloMosaic Idealize.ShloMosaic.ValueIdx

/-- The row form: `y[r, f] = (Σ_k x[r, k] · w[k, f]) + b[0, f]`. -/
def rows (x : FVec Ideal ⟨2, ![16384, 1024]⟩ .f32) (w : FVec Ideal ⟨2, ![1024, 4096]⟩ .bf16)
    (b : FVec Ideal ⟨2, ![1, 4096]⟩ .f32) : FVec Ideal ⟨2, ![16384, 4096]⟩ .f32 :=
  fun i => (∑ k : Fin 1024, x (ix2 (i 0 : Fin 16384) k) * w (ix2 k (i 1 : Fin 4096))) + b (ix2 (0 : Fin 1) (i 1 : Fin 4096))

/-- The batched form: `y[a, s, f] = (Σ_k x[a, s, k] · w[k, f]) + b[f]`. -/
def dense (x : FVec Ideal ⟨3, ![4, 4096, 1024]⟩ .f32) (w : FVec Ideal ⟨2, ![1024, 4096]⟩ .f32)
    (b : FVec Ideal ⟨1, ![4096]⟩ .f32) : FVec Ideal ⟨3, ![4, 4096, 4096]⟩ .f32 :=
  fun i => (∑ k : Fin 1024, x (ix3 (i 0 : Fin 4) (i 1 : Fin 4096) k) * w (ix2 k (i 2 : Fin 4096))) + b (ix1 (i 2 : Fin 4096))

/-- The flattened row of batch `a`, position `s`. -/
def flatRow (a : Fin 4) (s : Fin 4096) : Fin 16384 := ⟨a.val * 4096 + s.val, by have := a.isLt; have := s.isLt; omega⟩

/-- The flattened input at row `a · 4096 + s` is the input at `(a, s)`. -/
theorem flat_input (x : FVec Ideal ⟨3, ![4, 4096, 1024]⟩ .f32)
    (h : (⟨3, ![4, 4096, 1024]⟩ : Shape).ShapeCasts ⟨2, ![16384, 1024]⟩) (a : Fin 4) (s : Fin 4096) (k : Fin 1024) :
    shapeCast ⟨2, ![16384, 1024]⟩ x h (ix2 (flatRow a s) k) = x (ix3 a s k) := by
  refine shapeCast_apply x h _ _ ?_
  rw [Shape.rowMajor_val_two, Shape.rowMajor_val_three]
  rfl

/-- The bias as a one-row matrix at `(0, f)` is the bias at `f`. -/
theorem row_bias (b : FVec Ideal ⟨1, ![4096]⟩ .f32)
    (h : (⟨1, ![4096]⟩ : Shape).ShapeCasts ⟨2, ![1, 4096]⟩) (f : Fin 4096) :
    shapeCast ⟨2, ![1, 4096]⟩ b h (ix2 (0 : Fin 1) f) = b (ix1 f) := by
  refine shapeCast_apply b h _ _ ?_
  rw [Shape.rowMajor_val_two, Shape.rowMajor_val_one]
  show f.val = 0 * 4096 + f.val
  omega

/-- `rows` of the flattened input and the one-row bias, reshaped back to [4, 4096, 4096], is `dense`; the weight's
    change of format is the identity on the extended reals. -/
theorem unflatten_rows (x : FVec Ideal ⟨3, ![4, 4096, 1024]⟩ .f32) (w : FVec Ideal ⟨2, ![1024, 4096]⟩ .f32)
    (b : FVec Ideal ⟨1, ![4096]⟩ .f32)
    (hx : (⟨3, ![4, 4096, 1024]⟩ : Shape).ShapeCasts ⟨2, ![16384, 1024]⟩)
    (hb : (⟨1, ![4096]⟩ : Shape).ShapeCasts ⟨2, ![1, 4096]⟩)
    (hw : FTy.bits .bf16 < FTy.bits .f32)
    (hy : (⟨2, ![16384, 4096]⟩ : Shape).ShapeCasts ⟨3, ![4, 4096, 4096]⟩) :
    shapeCast ⟨3, ![4, 4096, 4096]⟩
        (rows (shapeCast ⟨2, ![16384, 1024]⟩ x hx) (truncf (F := Ideal) .bf16 w hw) (shapeCast ⟨2, ![1, 4096]⟩ b hb)) hy
      = dense x w b := by
  funext i
  obtain ⟨a, s, f, rfl⟩ : ∃ (a : Fin 4) (s : Fin 4096) (f : Fin 4096), i = ix3 a s f := ⟨i 0, i 1, i 2, eq_ix3 i⟩
  rw [shapeCast_apply _ hy (ix3 a s f) (ix2 (flatRow a s) f) (by
    rw [Shape.rowMajor_val_two, Shape.rowMajor_val_three]; rfl)]
  show (∑ k : Fin 1024, shapeCast ⟨2, ![16384, 1024]⟩ x hx (ix2 (flatRow a s) k) * w (ix2 k f))
      + shapeCast ⟨2, ![1, 4096]⟩ b hb (ix2 (0 : Fin 1) f)
    = (∑ k : Fin 1024, x (ix3 a s k) * w (ix2 k f)) + b (ix1 f)
  rw [row_bias]
  exact congrArg (· + b (ix1 f)) (Finset.sum_congr rfl fun k _ => by rw [flat_input])

end DenseSpec

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.SlabValue.lean ====
/-
  What one grid step stores, read at an entry. The step loads a 512-row slab `x` of the flattened input, the whole
  weight `w` and the one-row bias `b`, and stores `x · w + b` (the slab's format change and the weight's are the
  identity on the extended reals; the accumulator starts at zero; the bias row is repeated down the 512 rows).
  So entry `(p, q)` of the stored block is `(Σ_k x[p, k] · w[k, q]) + b[0, q]`.
-/
import proofs.«115943_j39762807226775_2_alg».proof.Proof.Gen.KernelIdeal.Skeleton
import proofs.«115943_j39762807226775_2_alg».proof.Proof.LibMatmulNN
import Idealize.ShloMosaic.Lib.Pipeline.Value
import Idealize.ShloMosaic.Lib.ValueIdx

noncomputable section

open scoped BigOperators

namespace Cert.KernelIdeal.SlabValue

open Cert.KernelIdeal Cert.KernelIdeal.Gen Idealize.ShloMosaic Idealize.ShloMosaic.ValueIdx

/-- The bias row repeated down the slab: row `p`, column `q` reads the bias at `(0, q)`. -/
theorem bias_rows (b : FVec Ideal S1x4096 .f32) (p : Fin 512) (q : Fin 4096) :
    broadcastTo S512x4096 b broadcasts_S1x4096_S512x4096 (ix2 p q) = b (ix2 (0 : Fin 1) q) := by
  refine broadcastTo_apply b broadcasts_S1x4096_S512x4096 (ix2 p q) (ix2 (0 : Fin 1) q) (fun a => ?_)
  match a with
  | ⟨0, _⟩ => show (0 : Nat) = if (1 : Nat) = 1 then 0 else p.val; rw [if_pos rfl]
  | ⟨1, _⟩ => show q.val = if (4096 : Nat) = 1 then 0 else q.val; rw [if_neg (by decide)]

/-- Entry `(p, q)` of the block a grid step stores. -/
theorem stored_apply (x : Vec Ideal S512x1024 .f32) (w : Vec Ideal S1024x4096 .bf16) (b : Vec Ideal S1x4096 .f32)
    (p : Fin 512) (q : Fin 4096) :
    k0_pay1 (F := Ideal) x w b (ix2 p q) = (∑ k : Fin 1024, x (ix2 p k) * w (ix2 k q)) + b (ix2 (0 : Fin 1) q) := by
  unfold k0_pay1
  simp only [shapeCast_self]
  rw [addf_apply, bias_rows]
  exact congrArg (· + b (ix2 (0 : Fin 1) q))
    (LibMatmulNN.matmul_zero_apply 512 1024 4096 none (truncf (F := Ideal) .bf16 x bitsLt_bf16_f32) w p q)

end Cert.KernelIdeal.SlabValue

end
-- ==== Proof.DenseValue.lean ====
/-
  The kernel's result as a function of its arguments, on the extended reals.

  Before the region the host flattens the input to 16384 rows, views the bias as one row, and changes the weight's
  format (the identity here). The region has 32 steps; step `t` reads rows `512·t … 512·t + 511` of the flattened
  input, the whole weight and the bias row, and writes rows `512·t … 512·t + 511` of the 16384 × 4096 result:
  that slab of `DenseSpec.rows`. The 32 slabs tile the result, so after the region it IS `DenseSpec.rows` of what the
  region found; the host then reshapes it to [4, 4096, 4096], which by `DenseSpec.unflatten_rows` is
  `DenseSpec.dense` of the arguments.
-/
import proofs.«115943_j39762807226775_2_alg».proof.Proof.Gen.KernelIdeal.Frame
import proofs.«115943_j39762807226775_2_alg».proof.Proof.SlabValue
import proofs.«115943_j39762807226775_2_alg».proof.Proof.DenseSpec
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.DenseValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What the region finds -/

/-- The flattened input: the argument read through the row-major reshape to 16384 rows. -/
theorem found_rows (c : Dev nD) :
    (V m c main_v0 : S16384x1024.Idx → EReal)
      = shapeCast S16384x1024 (m ((c : Thread nD τ).loc main_arg0)) shapeCasts_S4x4096x1024_S16384x1024 := by
  show StableHlo.after hostOps0 (fun b => m (c, b)) (Proc.devRef .tc main_v0) = _
  after_results; rfl

/-- The bias as a one-row matrix. -/
theorem found_bias (c : Dev nD) :
    (V m c main_v1 : S1x4096.Idx → EReal)
      = shapeCast S1x4096 (m ((c : Thread nD τ).loc main_arg2)) shapeCasts_S4096_S1x4096 := by
  show StableHlo.after hostOps0 (fun b => m (c, b)) (Proc.devRef .tc main_v1) = _
  after_results; rfl

/-- The weight after its change of format. -/
theorem found_weight (c : Dev nD) :
    (V m c main_v2 : S1024x4096.Idx → EReal)
      = truncf (F := Ideal) .bf16 (m ((c : Thread nD τ).loc main_arg1)) bitsLt_bf16_f32 := by
  show StableHlo.after hostOps0 (fun b => m (c, b)) (Proc.devRef .tc main_v2) = _
  after_results

/-! ## Step `t` writes slab `t` of the row form -/

theorem zero_offsets : (![0, 0] : Fin 2 → Nat) = fun _ => 0 := funext fun a => by fin_cases a <;> rfl

/-- The block index maps over the 32 steps: the input slab and the output slab are both block `t` along the rows and
    block 0 along the columns; the weight and the bias row are always block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row slab is some step's. -/
theorem slab_onto : ∀ q : Fin 32, ∃ t : Fin cfg0.N, win0_3.index t = ![q.val, 0] :=
  (by decide +kernel : ∀ q : Fin 32, ∃ t : Fin grid0.N, win0_3.index t = ![q.val, 0])

/-- What step `t` writes back is slab `t` of `DenseSpec.rows` of the arrays the region finds. -/
theorem flushed_eq (c : Dev nD) (t : Fin cfg0.N) :
    (dats m 0 c).flushed 3 t
      = ((cfg0.win 3).blk t).view.read (Elt Ideal) (DenseSpec.rows (V m c main_v0) (V m c main_v2) (V m c main_v1)) := by
  show (cfg0.win 3).cut (grid0.coords t) ((dats m 0 c).after 3 t) = _
  rw [after0_3]
  unfold out0_3
  rw [View.canon_unit_zero zero_offsets]
  simp only [View.ld_unit_zero (S := S512x1024) zero_offsets, View.ld_unit_zero (S := S1024x4096) zero_offsets,
    View.ld_unit_zero (S := S1x4096) zero_offsets]
  obtain ⟨e00, e01, e10, e11, e20, e21, e30, e31⟩ := block_indices t
  refine funext fun (j : S512x4096.Idx) => ?_
  obtain ⟨p, q, rfl⟩ : ∃ (p : Fin 512) (q : Fin 4096), j = ix2 p q := ⟨j 0, j 1, eq_ix2 j⟩
  show k0_pay1 (F := Ideal) (iblk m c 0 t) (iblk m c 1 t) (iblk m c 2 t) (ix2 p q)
    = DenseSpec.rows (V m c main_v0) (V m c main_v2) (V m c main_v1) (((cfg0.win 3).blk t).view.emb (ix2 p q))
  refine (SlabValue.stored_apply (iblk m c 0 t) (iblk m c 1 t) (iblk m c 2 t) p q).trans ?_
  -- each input block, read where the output slab's rows and columns say
  have h0 : ∀ k : Fin 1024, iblk m c 0 t (ix2 p k)
      = V m c main_v0 (ix2 ((((cfg0.win 3).blk t).view.emb (ix2 p q)) 0 : Fin 16384) k) := fun k => by
    show V m c main_v0 (((cfg0.win 0).blk t).view.emb (ix2 p k)) = _
    refine congrArg (V m c main_v0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k.val = k.val; omega
  have h1 : ∀ k : Fin 1024, iblk m c 1 t (ix2 k q)
      = V m c main_v2 (ix2 k ((((cfg0.win 3).blk t).view.emb (ix2 p q)) 1 : Fin 4096)) := fun k => by
    show V m c main_v2 (((cfg0.win 1).blk t).view.emb (ix2 k q)) = _
    refine congrArg (V m c main_v2) (funext fun a => Fin.ext ?_)
    match a with
    | ⟨0, _⟩ => show win0_1.index t (0 : Fin 2) * 1024 + 1 * k.val = k.val; omega
    | ⟨1, _⟩ => show win0_1.index t (1 : Fin 2) * 4096 + 1 * q.val = win0_3.index t (1 : Fin 2) * 4096 + 1 * q.val; omega
  have h2 : iblk m c 2 t (ix2 (0 : Fin 1) q)
      = V m c main_v1 (ix2 (0 : Fin 1) ((((cfg0.win 3).blk t).view.emb (ix2 p q)) 1 : Fin 4096)) := by
    show V m c main_v1 (((cfg0.win 2).blk t).view.emb (ix2 (0 : Fin 1) q)) = _
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 4096 + 1 * q.val = win0_3.index t (1 : Fin 2) * 4096 + 1 * q.val; omega
  rw [h2]
  exact congrArg (· + _) (Finset.sum_congr rfl fun k _ => by rw [h0 k, h1 k])

/-! ## The slabs tile the result -/

/-- An entry of the 16384 × 4096 result is in step `t`'s slab iff each coordinate is in the slab's range. -/
theorem mem_slab (t : Fin cfg0.N) (i : S16384x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v3).slice (win0_3.rect t)).set ↔ _
  rw [View.set_slice_whole, Rect.mem_set_unit]
  exact Iff.rfl

/-- Row `r` lies in the slab of step `r / 512`. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := slab_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_slab]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- The result array after the region is the row form of what the region found. -/
theorem region_result (c : Dev nD) :
    (dats m 0 c).arrAt 3 cfg0.N = DenseSpec.rows (V m c main_v0) (V m c main_v2) (V m c main_v1) :=
  (dats m 0 c).arrAt_eq_of_cover 3 _ (fun t _ => flushed_eq m c t) covered

/-! ## The reshape after the region, and the run -/

/-- The program's result: the region's array reshaped to [4, 4096, 4096] is the dense layer of the arguments. -/
theorem result_eq (c : Dev nD) :
    Pipeline.afterTail₀ cfgs (dats m) 0 (V0 m) [hostOps1] c main_v4
      = DenseSpec.dense (m ((c : Thread nD τ).loc main_arg0)) (m ((c : Thread nD τ).loc main_arg1))
          (m ((c : Thread nD τ).loc main_arg2)) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v3)
      = DenseSpec.rows (V m c main_v0) (V m c main_v2) (V m c main_v1) from
    (Pipeline.withArrays_arr spec0 launch0.win.arr_inj c _ _ 3).trans (region_result m c)]
  rw [found_rows, found_weight, found_bias]
  exact DenseSpec.unflatten_rows _ _ _ _ _ _ _

/-- Every weakly fair execution of the kernel program ends with the result at the dense layer of the arguments and
    the arguments unchanged. -/
theorem run : θ_run defs (onTc (τ := τ) (main (F := Ideal))) ⟨m, fun _ => 0, ρ⟩ fun r => ∀ c : Dev nD,
      r.2.mem ((c : Thread nD τ).loc main_v4)
        = DenseSpec.dense (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.DenseValue

end
-- ==== Proof.ReferenceValue.lean ====
/-
  The reference on the extended reals is the dense layer: the einsum contracts the input's last axis with the
  weight's first, entry `(a, s, f)` being `Σ_k x[a, s, k] · w[k, f]`; the bias is broadcast along batch and sequence,
  entry `(a, s, f)` reading `b[f]`; their sum is `DenseSpec.dense`.
-/
import proofs.«115943_j39762807226775_2_alg».proof.Proof.Gen.ReferenceIdeal.Read
import proofs.«115943_j39762807226775_2_alg».proof.Proof.DenseSpec
import Idealize.ShloMosaic.Lib.ValueIdx

noncomputable section

open scoped BigOperators

namespace Cert.ReferenceIdeal.DenseValue

open Cert.ReferenceIdeal Cert.ReferenceIdeal.Gen Cert.ReferenceIdeal.Read Idealize.ShloMosaic Idealize.ShloMosaic.ValueIdx

/-- The reference's last stage, index by index, is the dense layer of its three arguments. -/
theorem reference_eq (x : FVec Ideal S4x4096x1024 .f32) (w : FVec Ideal S1024x4096 .f32) (b : FVec Ideal S4096 .f32) :
    val_main_v3 (F := Ideal) x w b = DenseSpec.dense x w b := by
  funext i
  have el : ∀ k : Fin 1024, lidx_main_v0 i k = ix3 (i 0 : Fin 4) (i 1 : Fin 4096) k := fun k =>
    funext fun a => Fin.ext (by match a with | ⟨0, _⟩ => rfl | ⟨1, _⟩ => rfl | ⟨2, _⟩ => rfl)
  have er : ∀ k : Fin 1024, ridx_main_v0 i k = ix2 k (i 2 : Fin 4096) := fun k =>
    funext fun a => Fin.ext (by match a with | ⟨0, _⟩ => rfl | ⟨1, _⟩ => rfl)
  have eb : idx_main_v1 (idx_main_v2 i) = ix1 (i 2 : Fin 4096) :=
    funext fun a => Fin.ext (by match a with | ⟨0, _⟩ => rfl)
  rw [val_main_v3_apply, val_main_v0_apply, val_main_v2_apply, val_main_v1_apply, eb]
  simp only [el, er]
  rfl

end Cert.ReferenceIdeal.DenseValue

end
-- ==== Proof.lean ====
/-
  A dense layer `y = x · W + b` over x : [4, 4096, 1024], W : [1024, 4096], b : [4096].

  The kernel flattens x to 16384 rows, rounds W to a narrower format, and in 32 grid steps multiplies a 512-row slab
  by the whole W into a zero accumulator, adds the bias row, and writes the slab of the 16384 × 4096 result, which the
  host reshapes to [4, 4096, 4096]. The reference contracts x's last axis with W's first (an einsum) and adds the
  broadcast bias.

  On the extended reals a change of float format is the identity and both matrix products are the plain sum over the
  1024 contracted entries, taken in the same order; so both programs compute, entry by entry,
  `(Σ_k x[a, s, k] · W[k, f]) + b[f]` — `DenseSpec.dense`. The only work is bookkeeping of indices: the slabs tile the
  rows, and row `a · 4096 + s` of the flattened arrays is entry `(a, s)` of the batched ones. No property of the inputs
  is used: the sums are equal term by term, so the equality holds at infinite entries too.

  The idealization rewrote nothing, so `preserves` has no conjunct. The frames are the generated ones; the
  reference's is its run with the result dropped.
-/
import proofs.«115943_j39762807226775_2_alg».proof.Defs
import proofs.«115943_j39762807226775_2_alg».proof.Proof.Gen.Kernel
import proofs.«115943_j39762807226775_2_alg».proof.Proof.Gen.Kernel.Skeleton
import proofs.«115943_j39762807226775_2_alg».proof.Proof.Gen.Kernel.Launch
import proofs.«115943_j39762807226775_2_alg».proof.Proof.Gen.Kernel.Points
import proofs.«115943_j39762807226775_2_alg».proof.Proof.Gen.Kernel.Frame
import proofs.«115943_j39762807226775_2_alg».proof.Proof.Gen.KernelIdeal
import proofs.«115943_j39762807226775_2_alg».proof.Proof.Gen.KernelIdeal.Skeleton
import proofs.«115943_j39762807226775_2_alg».proof.Proof.Gen.KernelIdeal.Launch
import proofs.«115943_j39762807226775_2_alg».proof.Proof.Gen.KernelIdeal.Points
import proofs.«115943_j39762807226775_2_alg».proof.Proof.Gen.KernelIdeal.Frame
import proofs.«115943_j39762807226775_2_alg».proof.Proof.Gen.ReferenceIdeal
import proofs.«115943_j39762807226775_2_alg».proof.Proof.Gen.Pre_finite_inputs
import proofs.«115943_j39762807226775_2_alg».proof.Proof.Gen.ReferenceIdeal.Run
import proofs.«115943_j39762807226775_2_alg».proof.Proof.Gen.ReferenceIdeal.Read
import proofs.«115943_j39762807226775_2_alg».proof.Proof.DenseSpec
import proofs.«115943_j39762807226775_2_alg».proof.Proof.DenseValue
import proofs.«115943_j39762807226775_2_alg».proof.Proof.ReferenceValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From arguments that agree, both programs end with `DenseSpec.dense` of the arguments. -/
theorem algebraic : Cert.algebraic_KernelIdeal_ReferenceIdeal := by
  intro m ρ m' ρ' _ hagree
  refine ⟨_, Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq (F := Ideal), Cert.ReferenceIdeal.DenseValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
